-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S4x8192x4 : Shape := ⟨3, ![4, 8192, 4]⟩
abbrev S4x1024 : Shape := ⟨2, ![4, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x8192x4 : S_.BroadcastsInDim S4x8192x4 (![] : Fin 0 → Fin S4x8192x4.rank)
  reducesTo_S4x8192x4_S_d0_1_2 : S4x8192x4.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  main_v18

def fn {F : FTy → Type} [FloatOps F] (main_arg0 : FVec F S4x8192x1024 .f32) (main_arg1 : FVec F S4x8192x4 .f32) (main_arg2 : FVec F S4x1024 .f32) (main_arg3 : FVec F S4x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x4 .f32 := Host.absf main_arg1
  let main_cst_0 : FVec F S_ .f32 := constant S_ .f32 0x7F800000#32
  let main_v5 : FVec F S4x8192x4 .f32 := broadcastInDim S4x8192x4 ![] bcast_S_S4x8192x4 main_cst_0
  let main_v6 : IVec S4x8192x4 1 := cmpf .olt main_v4 main_v5
  let main_c_1 : IVec S_ 1 := constantI S_ 1 1#1
  let main_v7 : IVec S_ 1 := (fun x v => Host.reduce IntOp.andi x v reducesTo_S4x8192x4_S_d0_1_2 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S4x1024 .f32 := Host.absf main_arg3
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_v13 main_v16
-- ==== Kernel.lean ====
abbrev S4x8192x1024 : Shape := ⟨3, ![4, 8192, 1024]⟩
abbrev S4x8192x4 : Shape := ⟨3, ![4, 8192, 4]⟩
abbrev S4x1024 : Shape := ⟨2, ![4, 1024]⟩
abbrev S1x2048x1024 : Shape := ⟨3, ![1, 2048, 1024]⟩
abbrev S1x2048x4 : Shape := ⟨3, ![1, 2048, 4]⟩
abbrev S2048x1024 : Shape := ⟨2, ![2048, 1024]⟩
abbrev S2048x4 : Shape := ⟨2, ![2048, 4]⟩
abbrev S2048 : Shape := ⟨1, ![2048]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S4x8192x4, .f32⟩
  | .hbm, ⟨2, _⟩ => ⟨S4x1024, .f32⟩
  | .hbm, ⟨3, _⟩ => ⟨S4x1024, .f32⟩
  | .hbm, ⟨4, _⟩ => ⟨S4x8192x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x4, .f32⟩
  | .local _ .vmem, ⟨3, _⟩ => ⟨S1x2048x4, .f32⟩
  | .local _ .vmem, ⟨4, _⟩ => ⟨S4x1024, .f32⟩
  | .local _ .vmem, ⟨5, _⟩ => ⟨S4x1024, .f32⟩
  | .local _ .vmem, ⟨6, _⟩ => ⟨S1x2048x1024, .f32⟩
  | .local _ .vmem, ⟨7, _⟩ => ⟨S1x2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x2048x4_S1x2048x4_0_0_0 : ∀ a, (![0, 0, 0] : Fin 3 → Nat) a + S1x2048x4.size a ≤ S1x2048x4.size a
  h_S1x2048x4 : 0 < S1x2048x4.numel
  shapeCasts_S1x2048x4_S2048x4 : S1x2048x4.ShapeCasts S2048x4
  inb_S4x1024_S4x1024_0_0 : ∀ a, (![0, 0] : Fin 2 → Nat) a + S4x1024.size a ≤ S4x1024.size a
  h_S4x1024 : 0 < S4x1024.numel
  reduces_S2048x1024_S2048 : S2048x1024.Reduces [1] S2048
  shapeCasts_S2048_S2048x1 : S2048.ShapeCasts S2048x1
  broadcasts_S2048x1_S2048x1024 : S2048x1.Broadcasts S2048x1024
  shapeCasts_S2048x1024_S1x2048x1024 : S2048x1024.ShapeCasts S1x2048x1024
  dot_S2048x4_S4x1024_S2048x1024_1_0_0_1_n_n_wf : DotDims.WF S2048x4 S4x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x8192x1024.size a
  hwx0_0 : ∀ i : grid0.Coords, EltTy.bits .f32 = 32 ∨ (Rect.block (s := S4x8192x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x4.size a ≤ S4x8192x4.size a
  hwx0_1 : ∀ i : grid0.Coords, EltTy.bits .f32 = 32 ∨ (Rect.block (s := S4x8192x4) S1x2048x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x1024.size a
  hwx0_2 : ∀ i : grid0.Coords, EltTy.bits .f32 = 32 ∨ (Rect.block (s := S4x1024) S4x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S4x8192x1024.size a
  hwx0_4 : ∀ i : grid0.Coords, EltTy.bits .f32 = 32 ∨ (Rect.block (s := S4x8192x1024) S1x2048x1024.size (cc0_transform_4 i) (hinb0_4 i)).WholeWords (EltTy.packing .f32)

variable [Facts₀]

def dot_S2048x4_S4x1024_S2048x1024_1_0_0_1_n_n : DotDims S2048x4 S4x1024 S2048x1024 where
  lhsContracting := [1]
  rhsContracting := [0]
  lhsNonContracting := [0]
  rhsNonContracting := [1]
  lhsBatch := []
  rhsBatch := []
  wf := dot_S2048x4_S4x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S4x8192x4 : Shape := ⟨3, ![4, 8192, 4]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x4, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  dot_S4x8192x4_S4x1024_S4x8192x1024_2_0_01_1_n_n_wf : DotDims.WF S4x8192x4 S4x1024 S4x8192x1024 [2] [0] [0, 1] [1] [] []

variable [Facts₀]

def dot_S4x8192x4_S4x1024_S4x8192x1024_2_0_01_1_n_n : DotDims S4x8192x4 S4x1024 S4x8192x1024 where
  lhsContracting := [2]
  rhsContracting := [0]
  lhsNonContracting := [0, 1]
  rhsNonContracting := [1]
  lhsBatch := []
  rhsBatch := []
  wf := dot_S4x8192x4_S4x1024_S4x8192x1024_2_0_01_1_n_n_wf

class Facts : Prop extends Facts₀ where

variable [Facts]
-- ==== Proof.RowNormSpec.lean ====
/-
  The function both programs compute, stated once over the extended reals.

  For an input `x : [4, 8192, 1024]`, mixing weights `α : [4, 8192, 4]` and two parameter tables `W, b : [4, 1024]`,
  the result at `(p, r, h)` depends on row `(p, r, ·)` of `x`, row `(p, r, ·)` of `α` and column `h` of `W` and `b`:
  the row is centred by its mean, scaled by the reciprocal square root of its (biased) variance plus `ε`, and the
  normalised entry is sent through the affine map whose slope and offset are the `α`-mixtures of column `h` of `W`
  and of `b`:
      out(p, r, h) = (x(p,r,h) − μ) · rsqrt(σ² + ε) · (∑ₙ α(p,r,n) · W(n,h)) + ∑ₙ α(p,r,n) · b(n,h),
      μ = (∑ₖ x(p,r,k)) / 1024,   σ² = (∑ₖ (x(p,r,k) − μ)²) / 1024.
  Division and the reciprocal square root are the ideal instance's total operations on the extended reals, and the two
  float literals (the row length 1024 and ε) are kept as the words the programs print: both programs print the same words,
  so their values are never needed.
-/
import Idealize.ShloMosaic.PureOps.Ideal
import Idealize.ShloMosaic.Lib.ValueIdx

noncomputable section

namespace Cert.RowNormMix

open Idealize.ShloMosaic Idealize.ShloMosaic.ValueIdx

/-- The input's and the result's shape. -/
abbrev SX : Shape := ⟨3, ![4, 8192, 1024]⟩
/-- The mixing weights' shape. -/
abbrev SA : Shape := ⟨3, ![4, 8192, 4]⟩
/-- A parameter table's shape. -/
abbrev SP : Shape := ⟨2, ![4, 1024]⟩

/-- The row length as the programs write it: the f32 word of `1024.0`. -/
abbrev rowLen : EReal := Ideal.ofBits .f32 0x44800000#32
/-- The variance offset `ε` as the programs write it: the f32 word nearest `1e-5`. -/
abbrev varEps : EReal := Ideal.ofBits .f32 0x3727C5AC#32

/-- A row's mean: its sum divided by the row length. -/
def rowMean (xr : Fin 1024 → EReal) : EReal := Ideal.div (∑ k : Fin 1024, xr k) rowLen

/-- A row's biased variance: the mean of the squared deviations from the row's mean. -/
def rowVar (xr : Fin 1024 → EReal) : EReal :=
  Ideal.div (∑ k : Fin 1024, (xr k - rowMean xr) * (xr k - rowMean xr)) rowLen

/-- One entry of the result from its row of `x`, its row of `α` and its columns of `W` and `b`. -/
def rowOut (xr : Fin 1024 → EReal) (ar wc bc : Fin 4 → EReal) (h : Fin 1024) : EReal :=
  (xr h - rowMean xr) * Ideal.rsqrt (rowVar xr + varEps) * (∑ n : Fin 4, ar n * wc n) + ∑ n : Fin 4, ar n * bc n

/-- An entry depends only on the VALUES of its row, its mixing weights and its two columns, and on its column number. -/
theorem rowOut_congr {xr xr' : Fin 1024 → EReal} {ar ar' wc wc' bc bc' : Fin 4 → EReal} {h h' : Fin 1024}
    (hx : ∀ k, xr k = xr' k) (ha : ∀ n, ar n = ar' n) (hw : ∀ n, wc n = wc' n) (hb : ∀ n, bc n = bc' n) (hh : h = h') :
    rowOut xr ar wc bc h = rowOut xr' ar' wc' bc' h' := by
  obtain rfl : xr = xr' := funext hx
  obtain rfl : ar = ar' := funext ha
  obtain rfl : wc = wc' := funext hw
  obtain rfl : bc = bc' := funext hb
  rw [hh]

/-- The result at coordinates `(p, r, h)`. -/
def outAt (x : SX.Idx → EReal) (al : SA.Idx → EReal) (W b : SP.Idx → EReal) (p : Fin 4) (r : Fin 8192) (h : Fin 1024) : EReal :=
  rowOut (fun k => x (ix3 p r k)) (fun n => al (ix3 p r n)) (fun n => W (ix2 n h)) (fun n => b (ix2 n h)) h

/-- The whole result array as one function of the four argument arrays. -/
def result (x : SX.Idx → EReal) (al : SA.Idx → EReal) (W b : SP.Idx → EReal) : SX.Idx → EReal :=
  fun i => outAt x al W b (i 0) (i 1) (i 2)

/-- The result read at an index given by its coordinates. -/
theorem result_ix3 (x : SX.Idx → EReal) (al : SA.Idx → EReal) (W b : SP.Idx → EReal) (p : Fin 4) (r : Fin 8192) (h : Fin 1024) :
    result x al W b (ix3 p r h) = outAt x al W b p r h := rfl

end Cert.RowNormMix

end
-- ==== Proof.KernelRow.lean ====
/-
  One entry of what the kernel body stores, read off the body's arithmetic.

  The body holds one block of `x` (`[1, 2048, 1024]`), the matching block of the mixing weights (`[1, 2048, 4]`) and the two
  whole parameter tables (`[4, 1024]`). Entry `(u, r, h)` of the stored block is the row-normalised, mixed-affine value of
  row `r` of the `x` block, row `r` of the weights block and column `h` of the two tables: the lane sums are sums over the
  row, the two products with the tables (into a zero accumulator) are sums over the four mixing weights, and the unit-axis
  casts and keep-dims broadcasts only move coordinates. No law of the extended reals is needed: the body's term at an
  entry and the specification's `rowOut` are the same expression once every layout operation has been read at the entry.
-/
import proofs.«118963_j40707700031573_1_alg».proof.Proof.Gen.KernelIdeal.Skeleton
import proofs.«118963_j40707700031573_1_alg».proof.Proof.RowNormSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.RowNormMix

/-! ## Keep-dims columns: a vector as a one-column matrix, and that column spread over the lanes -/

section Layout
variable {α : Type}

/-- An `[a]` vector cast to the column `[a, 1]` reads, at `(i, z)`, the vector at `i`. -/
theorem shapeCast_a_a1_apply {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- A column `[a, 1]` broadcast to `[a, b]` reads, at `(i, c)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

/-! ## A lane sum and a product with a table, read at an entry -/

/-- The sum over the lanes of a `[2048, 1024]` matrix, at row `r`, is the sum of that row. -/
theorem laneSum_apply (v : FVec Ideal S2048x1024 .f32) (hφ : FKind.Formats .f32)
    (hacc : (0x00000000#32 : BitVec 32) = 0x00000000#32) (r : Fin 2048) :
    multiReduction .add [1] S2048 v 0x00000000#32 reduces_S2048x1024_S2048 hφ hacc (ix1 r) = ∑ k : Fin 1024, v (ix2 r k) := by
  refine (Ideal.multiReduction_add_single v _ reduces_S2048x1024_S2048 hφ hacc (ix1 r)).trans ?_
  refine Finset.sum_congr rfl fun k _ => congrArg v ?_
  funext a
  match a with
  | ⟨0, _⟩ => rfl
  | ⟨1, _⟩ => rfl

/-- The contraction's dimension numbers, named. -/
abbrev mixDims : DotDims S2048x4 S4x1024 S2048x1024 := dot_S2048x4_S4x1024_S2048x1024_1_0_0_1_n_n

theorem mix_lhs0 (i : S2048x1024.Idx) (q : mixDims.contr.Idx) : (mixDims.lhsIdx i q 0).val = (i 0).val := by
  unfold DotDims.lhsIdx
  rw [dif_neg (show ¬(0 : Fin S2048x4.rank) ∈ mixDims.lhsBatch by decide), dif_pos (show (0 : Fin S2048x4.rank) ∈ mixDims.lhsNonContracting by decide)]
  rfl
theorem mix_lhs1 (i : S2048x1024.Idx) (q : mixDims.contr.Idx) : (mixDims.lhsIdx i q 1).val = (q ⟨0, by decide⟩).val :=
  mixDims.lhsIdx_val_of_single rfl i q
theorem mix_rhs0 (i : S2048x1024.Idx) (q : mixDims.contr.Idx) : (mixDims.rhsIdx i q 0).val = (q ⟨0, by decide⟩).val :=
  mixDims.rhsIdx_val_of_single rfl i q
theorem mix_rhs1 (i : S2048x1024.Idx) (q : mixDims.contr.Idx) : (mixDims.rhsIdx i q 1).val = (i 1).val := by
  unfold DotDims.rhsIdx
  rw [dif_neg (show ¬(1 : Fin S4x1024.rank) ∈ mixDims.rhsBatch by decide), dif_pos (show (1 : Fin S4x1024.rank) ∈ mixDims.rhsNonContracting by decide)]
  rfl

/-- The product of a `[2048, 4]` matrix with a `[4, 1024]` table into a zero accumulator, at `(r, h)`: the sum over the
    four middle coordinates of the products. -/
theorem mix_apply (a : FVec Ideal S2048x4 .f32) (tbl : FVec Ideal S4x1024 .f32) (r : Fin 2048) (h : Fin 1024) :
    matmul mixDims none a tbl (constant S2048x1024 .f32 0x00000000#32) (ix2 r h) = ∑ n : Fin 4, a (ix2 r n) * tbl (ix2 n h) := by
  refine (Ideal.matmul_constant_zero_apply mixDims none a tbl (ix2 r h)).trans ?_
  rw [← Equiv.sum_comp (contrEquiv1 mixDims 4 rfl rfl).symm]
  refine Finset.sum_congr rfl fun k _ => ?_
  have hk := contrEquiv1_symm_val mixDims 4 rfl rfl k
  have el : mixDims.lhsIdx (ix2 r h) ((contrEquiv1 mixDims 4 rfl rfl).symm k) = ix2 r k := funext fun ax => Fin.ext (by
    match ax with
    | ⟨0, _⟩ => exact mix_lhs0 _ _
    | ⟨1, _⟩ => exact (mix_lhs1 _ _).trans hk)
  have er : mixDims.rhsIdx (ix2 r h) ((contrEquiv1 mixDims 4 rfl rfl).symm k) = ix2 k h := funext fun ax => Fin.ext (by
    match ax with
    | ⟨0, _⟩ => exact (mix_rhs0 _ _).trans hk
    | ⟨1, _⟩ => exact mix_rhs1 _ _)
  rw [el, er]

/-! ## The body's arithmetic, stage by stage

The stored block is the cast back to `[1, 2048, 1024]` of `centred · scale · (α W) + (α b)`, where the stages below are the
body's own operations on the loaded blocks; `payload_stages` says so by unfolding. -/

/-- The block of `x` as a `[2048, 1024]` matrix. -/
def rows (x0 : Vec Ideal S1x2048x1024 .f32) : FVec Ideal S2048x1024 .f32 :=
  shapeCast S2048x1024 x0 shapeCasts_S1x2048x1024_S2048x1024

/-- The column of row means: each row's lane sum divided by the row length. -/
def meanCol (x0 : Vec Ideal S1x2048x1024 .f32) : FVec Ideal S2048x1 .f32 :=
  divf (shapeCast S2048x1 (multiReduction .add [1] S2048 (rows x0) 0x00000000#32 reduces_S2048x1024_S2048 (.inl rfl) rfl) shapeCasts_S2048_S2048x1)
    (broadcast S2048x1 (Scalar.ofBits .f32 0x44800000#32))

/-- The rows with their means taken off. -/
def centred (x0 : Vec Ideal S1x2048x1024 .f32) : FVec Ideal S2048x1024 .f32 :=
  subf (rows x0) (broadcastTo S2048x1024 (meanCol x0) broadcasts_S2048x1_S2048x1024)

/-- The column of row scales: the reciprocal square root of the mean squared deviation plus `ε`. -/
def scaleCol (x0 : Vec Ideal S1x2048x1024 .f32) : FVec Ideal S2048x1 .f32 :=
  rsqrt (addf (divf (shapeCast S2048x1 (multiReduction .add [1] S2048 (mulf (centred x0) (centred x0)) 0x00000000#32 reduces_S2048x1024_S2048 (.inl rfl) rfl) shapeCasts_S2048_S2048x1)
      (broadcast S2048x1 (Scalar.ofBits .f32 0x44800000#32)))
    (broadcast S2048x1 (Scalar.ofBits .f32 0x3727C5AC#32)))

/-- The mixing weights' block times a parameter table, into a zero accumulator. -/
def mixed (x1 : Vec Ideal S1x2048x4 .f32) (tbl : Vec Ideal S4x1024 .f32) : FVec Ideal S2048x1024 .f32 :=
  matmul (φ₁ := .f32) (φ₂ := .f32) mixDims none (shapeCast S2048x4 x1 shapeCasts_S1x2048x4_S2048x4) tbl (constant S2048x1024 .f32 0x00000000#32)

/-- The body's stored value is these stages composed. -/
theorem payload_stages (x0 : Vec Ideal S1x2048x1024 .f32) (x1 : Vec Ideal S1x2048x4 .f32) (x2 x3 : Vec Ideal S4x1024 .f32) :
    k0_pay1 (F := Ideal) x0 x1 x2 x3
      = shapeCast S1x2048x1024 (addf (mulf (mulf (centred x0) (broadcastTo S2048x1024 (scaleCol x0) broadcasts_S2048x1_S2048x1024)) (mixed x1 x2)) (mixed x1 x3))
          shapeCasts_S2048x1024_S1x2048x1024 := rfl

theorem rows_apply (x0 : Vec Ideal S1x2048x1024 .f32) (r : Fin 2048) (k : Fin 1024) :
    rows x0 (ix2 r k) = x0 (ix3 (0 : Fin 1) r k) :=
  shapeCast_1ab_ab_apply x0 _ r k

theorem meanCol_apply (x0 : Vec Ideal S1x2048x1024 .f32) (r : Fin 2048) (z : Fin 1) :
    meanCol x0 (ix2 r z) = rowMean (fun k => x0 (ix3 (0 : Fin 1) r k)) := by
  show Ideal.div (shapeCast S2048x1 _ shapeCasts_S2048_S2048x1 (ix2 r z)) rowLen = _
  rw [shapeCast_a_a1_apply, laneSum_apply]
  simp only [rows_apply]
  rfl

theorem centred_apply (x0 : Vec Ideal S1x2048x1024 .f32) (r : Fin 2048) (k : Fin 1024) :
    centred x0 (ix2 r k) = x0 (ix3 (0 : Fin 1) r k) - rowMean (fun k => x0 (ix3 (0 : Fin 1) r k)) := by
  show rows x0 (ix2 r k) - broadcastTo S2048x1024 (meanCol x0) broadcasts_S2048x1_S2048x1024 (ix2 r k) = _
  rw [broadcastTo_a1_ab_apply, rows_apply, meanCol_apply]

theorem scaleCol_apply (x0 : Vec Ideal S1x2048x1024 .f32) (r : Fin 2048) (z : Fin 1) :
    scaleCol x0 (ix2 r z) = Ideal.rsqrt (rowVar (fun k => x0 (ix3 (0 : Fin 1) r k)) + varEps) := by
  show Ideal.rsqrt (Ideal.div (shapeCast S2048x1 _ shapeCasts_S2048_S2048x1 (ix2 r z)) rowLen + varEps) = _
  rw [shapeCast_a_a1_apply, laneSum_apply]
  simp only [mulf_apply, centred_apply]
  rfl

theorem mixed_apply (x1 : Vec Ideal S1x2048x4 .f32) (tbl : Vec Ideal S4x1024 .f32) (r : Fin 2048) (h : Fin 1024) :
    mixed x1 tbl (ix2 r h) = ∑ n : Fin 4, x1 (ix3 (0 : Fin 1) r n) * tbl (ix2 n h) := by
  unfold mixed
  rw [mix_apply]
  refine Finset.sum_congr rfl fun n _ => ?_
  rw [shapeCast_1ab_ab_apply]

/-- Entry `(u, r, h)` of the block the body stores, from the body's four loaded blocks. -/
theorem payload_at (x0 : Vec Ideal S1x2048x1024 .f32) (x1 : Vec Ideal S1x2048x4 .f32) (x2 x3 : Vec Ideal S4x1024 .f32)
    (u : Fin 1) (r : Fin 2048) (h : Fin 1024) :
    k0_pay1 (F := Ideal) x0 x1 x2 x3 (ix3 u r h)
      = rowOut (fun k => x0 (ix3 (0 : Fin 1) r k)) (fun n => x1 (ix3 (0 : Fin 1) r n)) (fun n => x2 (ix2 n h)) (fun n => x3 (ix2 n h)) h := by
  rw [payload_stages, shapeCast_ab_1ab_apply]
  show centred x0 (ix2 r h) * broadcastTo S2048x1024 (scaleCol x0) broadcasts_S2048x1_S2048x1024 (ix2 r h) * mixed x1 x2 (ix2 r h) + mixed x1 x3 (ix2 r h) = _
  rw [broadcastTo_a1_ab_apply, centred_apply, scaleCol_apply, mixed_apply, mixed_apply]
  rfl

end Cert.KernelIdeal.RowValue

end
-- ==== Proof.KernelArray.lean ====
/-
  From the kernel's blocks to the whole output array.

  The grid has sixteen points `(bi, si)`, `bi, si < 4`. Point `(bi, si)` stages the block of `x` made of rows
  `si * 2048 … si * 2048 + 2047` of batch `bi` (all 1024 columns), the block of the mixing weights `α` with the same
  batch and rows (all 4 weights), and the two parameter tables `W` and `b` WHOLE; it writes back the block of the output
  with the same batch and rows. Entry `(0, r, h)` of the block written back is, by the body's arithmetic, the
  row-normalised, mixed-affine value of row `r` of the staged `x` block, row `r` of the staged `α` block and column `h` of
  the two staged tables. Row `r` of the staged blocks is row `si * 2048 + r` of batch `bi` of the arrays — the very row
  the specification reads for output entry `(bi, si * 2048 + r, h)` — and the staged tables are the tables themselves. So
  each point writes back its block of the specified result. Every index `(p, q, h)` of the output lies in exactly the block
  of point `(p, q / 2048)`: the sixteen blocks tile the array, and the array ends holding the specified result everywhere.
-/
import proofs.«118963_j40707700031573_1_alg».proof.Proof.Gen.KernelIdeal.Value
import proofs.«118963_j40707700031573_1_alg».proof.Proof.KernelRow
import Idealize.ShloMosaic.Lib.Pipeline.Value
import Idealize.ShloMosaic.Lib.ValueIdx

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.RowNormMix
open Idealize.ShloMosaic.Pipeline (Dat)

variable (m : (ℓ : Loc nD τ sig) → Buf (Elt Ideal) ℓ) (ρ : Dev nD → PrngReg)

/-! ## The index maps over the sixteen points -/

/-- The zero offset of a rank-3 whole-block access, as the constant function. -/
theorem zero_off3 : (![0, 0, 0] : Fin 3 → Nat) = fun _ => 0 := funext fun a => by fin_cases a <;> rfl
/-- The zero offset of a rank-2 whole-block access, as the constant function. -/
theorem zero_off2 : (![0, 0] : Fin 2 → Nat) = fun _ => 0 := funext fun a => by fin_cases a <;> rfl

/-- The printed index maps, decided over the grid: the blocks of `x` and of `α` sit at the output block's batch and
    row-block and at lane-block 0; the two tables are always staged at block `(0, 0)`; the output's block index is
    `(bi, si, 0)` with `bi, si ≤ 3`. -/
theorem same_rows : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_1.index t (0 : Fin 3) = win0_4.index t (0 : Fin 3)
    ∧ win0_1.index t (1 : Fin 3) = win0_4.index t (1 : Fin 3)
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (2 : Fin 3) = 0
    ∧ win0_4.index t (0 : Fin 3) ≤ 3
    ∧ win0_4.index t (1 : Fin 3) ≤ 3 :=
  (by decide +kernel : ∀ t : Fin grid0.N, _)

/-- Every pair (batch, row-block) is SOME point's output block. -/
theorem every_block : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-! ## What the staged blocks hold, by coordinates -/

/-- Row `r` of the block of `x` staged at a point is row `q` of batch `p` of `x`, for the batch `p` and the row
    `q = si * 2048 + r` of the point's output block. -/
theorem x_row (c : Dev nD) (t : Fin cfg0.N) (p : Fin 4) (q : Fin 8192) (r : Fin 2048)
    (hp : p.val = win0_4.index t (0 : Fin 3)) (hq : q.val = win0_4.index t (1 : Fin 3) * 2048 + r.val) (k : Fin 1024) :
    iblk m c 0 t (ix3 (0 : Fin 1) r k) = V m c main_arg0 (ix3 p q k) := by
  obtain ⟨e0, e1, e2, -⟩ := same_rows t
  show V m c main_arg0 (((cfg0.win 0).blk t).view.emb (ix3 (0 : Fin 1) r k)) = V m c main_arg0 (ix3 p q k)
  have he : ((cfg0.win 0).blk t).view.emb (ix3 (0 : Fin 1) r k) = ix3 p q k := by
    funext a; apply Fin.ext
    match a with
    | ⟨0, _⟩ => show win0_0.index t (0 : Fin 3) * 1 + 1 * 0 = p.val; omega
    | ⟨1, _⟩ => show win0_0.index t (1 : Fin 3) * 2048 + 1 * r.val = q.val; omega
    | ⟨2, _⟩ => show win0_0.index t (2 : Fin 3) * 1024 + 1 * k.val = k.val; omega
  rw [he]

/-- Row `r` of the block of the mixing weights staged at a point is row `q` of batch `p` of the weights, likewise. -/
theorem alpha_row (c : Dev nD) (t : Fin cfg0.N) (p : Fin 4) (q : Fin 8192) (r : Fin 2048)
    (hp : p.val = win0_4.index t (0 : Fin 3)) (hq : q.val = win0_4.index t (1 : Fin 3) * 2048 + r.val) (n : Fin 4) :
    iblk m c 1 t (ix3 (0 : Fin 1) r n) = V m c main_arg1 (ix3 p q n) := by
  obtain ⟨-, -, -, e3, e4, e5, -⟩ := same_rows t
  show V m c main_arg1 (((cfg0.win 1).blk t).view.emb (ix3 (0 : Fin 1) r n)) = V m c main_arg1 (ix3 p q n)
  have he : ((cfg0.win 1).blk t).view.emb (ix3 (0 : Fin 1) r n) = ix3 p q n := by
    funext a; apply Fin.ext
    match a with
    | ⟨0, _⟩ => show win0_1.index t (0 : Fin 3) * 1 + 1 * 0 = p.val; omega
    | ⟨1, _⟩ => show win0_1.index t (1 : Fin 3) * 2048 + 1 * r.val = q.val; omega
    | ⟨2, _⟩ => show win0_1.index t (2 : Fin 3) * 4 + 1 * n.val = n.val; omega
  rw [he]

/-- The table `W` is staged whole at every point: its staged block is the table. -/
theorem w_entry (c : Dev nD) (t : Fin cfg0.N) (h : Fin 1024) (n : Fin 4) :
    iblk m c 2 t (ix2 n h) = V m c main_arg2 (ix2 n h) := by
  obtain ⟨-, -, -, -, -, -, e6, e7, -⟩ := same_rows t
  show V m c main_arg2 (((cfg0.win 2).blk t).view.emb (ix2 n h)) = V m c main_arg2 (ix2 n h)
  have he : ((cfg0.win 2).blk t).view.emb (ix2 n h) = ix2 n h := by
    funext a; apply Fin.ext
    match a with
    | ⟨0, _⟩ => show win0_2.index t (0 : Fin 2) * 4 + 1 * n.val = n.val; omega
    | ⟨1, _⟩ => show win0_2.index t (1 : Fin 2) * 1024 + 1 * h.val = h.val; omega
  rw [he]

/-- The table `b` is staged whole at every point: its staged block is the table. -/
theorem b_entry (c : Dev nD) (t : Fin cfg0.N) (h : Fin 1024) (n : Fin 4) :
    iblk m c 3 t (ix2 n h) = V m c main_arg3 (ix2 n h) := by
  obtain ⟨-, -, -, -, -, -, -, -, e8, e9, -⟩ := same_rows t
  show V m c main_arg3 (((cfg0.win 3).blk t).view.emb (ix2 n h)) = V m c main_arg3 (ix2 n h)
  have he : ((cfg0.win 3).blk t).view.emb (ix2 n h) = ix2 n h := by
    funext a; apply Fin.ext
    match a with
    | ⟨0, _⟩ => show win0_3.index t (0 : Fin 2) * 4 + 1 * n.val = n.val; omega
    | ⟨1, _⟩ => show win0_3.index t (1 : Fin 2) * 1024 + 1 * h.val = h.val; omega
  rw [he]

/-- Entry `(u, r, h)` of a point's output block sits in the array at batch `p = bi`, row `q = si * 2048 + r`, column `h`. -/
theorem out_entry (t : Fin cfg0.N) (u : Fin 1) (r : Fin 2048) (h : Fin 1024) :
    ∃ (p : Fin 4) (q : Fin 8192), ((cfg0.win 4).blk t).view.emb (ix3 u r h) = ix3 p q h
      ∧ p.val = win0_4.index t (0 : Fin 3) ∧ q.val = win0_4.index t (1 : Fin 3) * 2048 + r.val := by
  obtain ⟨-, -, -, -, -, -, -, -, -, -, e10, e11, e12⟩ := same_rows t
  have hu : u.val = 0 := by omega
  have hr : r.val < 2048 := r.isLt
  refine ⟨⟨win0_4.index t (0 : Fin 3), by omega⟩, ⟨win0_4.index t (1 : Fin 3) * 2048 + r.val, by omega⟩, ?_, rfl, rfl⟩
  funext a; apply Fin.ext
  match a with
  | ⟨0, _⟩ => show win0_4.index t (0 : Fin 3) * 1 + 1 * u.val = win0_4.index t (0 : Fin 3); omega
  | ⟨1, _⟩ => show win0_4.index t (1 : Fin 3) * 2048 + 1 * r.val = win0_4.index t (1 : Fin 3) * 2048 + r.val; omega
  | ⟨2, _⟩ => show win0_4.index t (2 : Fin 3) * 1024 + 1 * h.val = h.val; omega

/-! ## Each point writes back its block of the specified result -/

/-- WHAT POINT `t` WRITES BACK is block `t` of the specified result of the argument arrays as the region finds them. -/
theorem flushed_eq (c : Dev nD) (t : Fin cfg0.N) :
    (dats m 0 c).flushed 4 t = ((cfg0.win 4).blk t).view.read (Elt Ideal)
      (result (V m c main_arg0) (V m c main_arg1) (V m c main_arg2) (V m c main_arg3)) := by
  show (cfg0.win 4).cut (grid0.coords t) ((dats m 0 c).after 4 t) = _
  rw [after0_4]
  unfold out0_4
  rw [View.canon_unit_zero zero_off3]
  simp only [View.ld_unit_zero (S := S1x2048x1024) zero_off3, View.ld_unit_zero (S := S1x2048x4) zero_off3, View.ld_unit_zero (S := S4x1024) zero_off2]
  funext j
  obtain ⟨u, r, h, rfl⟩ : ∃ (u : Fin 1) (r : Fin 2048) (h : Fin 1024), j = ix3 u r h := ⟨j 0, j 1, j 2, eq_ix3 j⟩
  obtain ⟨p, q, hi, hp, hq⟩ := out_entry t u r h
  show k0_pay1 (F := Ideal) (iblk m c 0 t) (iblk m c 1 t) (iblk m c 2 t) (iblk m c 3 t) (ix3 u r h)
    = result (V m c main_arg0) (V m c main_arg1) (V m c main_arg2) (V m c main_arg3) (((cfg0.win 4).blk t).view.emb (ix3 u r h))
  rw [hi, result_ix3]
  refine (Cert.KernelIdeal.RowValue.payload_at (iblk m c 0 t) (iblk m c 1 t) (iblk m c 2 t) (iblk m c 3 t) u r h).trans ?_
  exact rowOut_congr (x_row m c t p q r hp hq) (alpha_row m c t p q r hp hq) (w_entry m c t h) (b_entry m c t h) rfl

/-! ## The sixteen blocks tile the array -/

/-- An index of the array is in point `t`'s block iff each coordinate is in the block's range on its axis. -/
theorem mem_block (t : Fin cfg0.N) (i : S4x8192x1024.Idx) :
    i ∈ ((cfg0.win 4).blk t).view.set ↔ ∀ a : Fin 3, win0_4.index t a * S1x2048x1024.size a ≤ (i a).val ∧ (i a).val < win0_4.index t a * S1x2048x1024.size a + S1x2048x1024.size a := by
  show i ∈ ((View.whole main_v0).slice (win0_4.rect t)).set ↔ _
  rw [View.set_slice_whole, Rect.mem_set_unit]
  exact Iff.rfl

/-- EVERY index of the output is in some point's block: `(p, q, h)` is in the block of the point with block index
    `(p, q / 2048, 0)`. -/
theorem covered (i : S4x8192x1024.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 1024 := (i 2).isLt
  obtain ⟨t, ht⟩ := every_block ⟨(i 0).val, by omega⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 1024 ≤ (i 2).val ∧ (i 2).val < win0_4.index t (2 : Fin 3) * 1024 + 1024; omega

/-- THE ARRAY after the run is the specified result of the argument arrays as launched. -/
theorem final (c : Dev nD) : (dats m 0 c).arrAt 4 cfg0.N
    = result (m ((c : Thread nD τ).loc main_arg0)) (m ((c : Thread nD τ).loc main_arg1)) (m ((c : Thread nD τ).loc main_arg2)) (m ((c : Thread nD τ).loc main_arg3)) := by
  have hfin := (dats m 0 c).arrAt_eq_of_cover 4
    (result (V m c main_arg0) (V m c main_arg1) (V m c main_arg2) (V m c main_arg3))
    (fun t _ => flushed_eq m c t) covered
  rw [V_main_arg0, V_main_arg1, V_main_arg2, V_main_arg3] at hfin
  exact hfin

/-! ## The run, read -/

/-- The kernel's run re-posted: the output array at the specified result of the arguments, the arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RefValue.lean ====
/-
  The reference's result is the specification.

  The reference is a chain of 27 host operations. Read at an index, they are as follows. The two sums over the last axis
  (the row sum that gives the mean, and the sum of squared deviations that gives the variance) start from the zero word,
  which is the extended real `0`, so each is the plain sum over the row's 1024 entries. The keep-dims broadcasts
  ([4,8192] → [4,8192,1] → [4,8192,1024]) and the broadcasts of the scalar literals only move coordinates: the value at
  `(p, r, ·)` is the value of row `(p, r)`. So the mean stage at row `(p, r)` is the row's sum divided by the word of
  the row length, the centred entry at `(p, r, k)` is `x(p,r,k) − μ`, the square is the product of two equal centred
  factors, the variance stage is the sum of those products divided by the same word, and the scale is the reciprocal
  square root of the variance plus the word of `ε`. The two contractions with the parameter tables contract the last axis
  of the mixing weights with the first axis of a table, so at `(p, r, h)` each is the sum over the four mixing weights
  `∑ₙ α(p,r,n) · T(n,h)`. The last operation, (centred · scale) · (α-mixture of W) + (α-mixture of b), read at
  `(p, r, h)`, is therefore the specification's entry `rowOut` of row `(p, r, ·)` of `x`, row `(p, r, ·)` of `α` and
  column `h` of the two tables. No algebraic law beyond `0 + s = s` is used: the reference's term and the specification's
  are the same expression once the indices are identified.
-/
import proofs.«118963_j40707700031573_1_alg».proof.Proof.Gen.ReferenceIdeal.Read
import proofs.«118963_j40707700031573_1_alg».proof.Proof.RowNormSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.RowNormMix

/-! ## The index maps of the layout operations, at an index given by its coordinates -/

/-- The row sum's operand index: entry `k` of row `(p, r)`. -/
theorem idx_v0_ix (p : Fin 4) (r : Fin 8192) (k : Fin 1024) : idx_main_v0 (ix2 p r) k = ix3 p r k :=
  funext fun a => Fin.ext (by match a with | ⟨0, _⟩ => rfl | ⟨1, _⟩ => rfl | ⟨2, _⟩ => rfl)

/-- The sum of squares' operand index: entry `k` of row `(p, r)`. -/
theorem idx_v7_ix (p : Fin 4) (r : Fin 8192) (k : Fin 1024) : idx_main_v7 (ix2 p r) k = ix3 p r k :=
  funext fun a => Fin.ext (by match a with | ⟨0, _⟩ => rfl | ⟨1, _⟩ => rfl | ⟨2, _⟩ => rfl)

/-- Adding the unit axis keeps the row. -/
theorem idx_v1_ix (p : Fin 4) (r : Fin 8192) (z : Fin 1) : idx_main_v1 (ix3 p r z) = ix2 p r :=
  funext fun a => Fin.ext (by match a with | ⟨0, _⟩ => rfl | ⟨1, _⟩ => rfl)

theorem idx_v8_ix (p : Fin 4) (r : Fin 8192) (z : Fin 1) : idx_main_v8 (ix3 p r z) = ix2 p r :=
  funext fun a => Fin.ext (by match a with | ⟨0, _⟩ => rfl | ⟨1, _⟩ => rfl)

/-- Broadcasting along the unit axis reads the row's one entry. -/
theorem idx_v4_ix (p : Fin 4) (r : Fin 8192) (k : Fin 1024) : idx_main_v4 (ix3 p r k) = ix3 p r (0 : Fin 1) :=
  funext fun a => Fin.ext (by match a with | ⟨0, _⟩ => rfl | ⟨1, _⟩ => rfl | ⟨2, _⟩ => rfl)

theorem idx_v11_ix (p : Fin 4) (r : Fin 8192) (k : Fin 1024) : idx_main_v11 (ix3 p r k) = ix3 p r (0 : Fin 1) :=
  funext fun a => Fin.ext (by match a with | ⟨0, _⟩ => rfl | ⟨1, _⟩ => rfl | ⟨2, _⟩ => rfl)

theorem idx_v16_ix (p : Fin 4) (r : Fin 8192) (k : Fin 1024) : idx_main_v16 (ix3 p r k) = ix3 p r (0 : Fin 1) :=
  funext fun a => Fin.ext (by match a with | ⟨0, _⟩ => rfl | ⟨1, _⟩ => rfl | ⟨2, _⟩ => rfl)

/-- The contractions' operand indices: weight `n` of row `(p, r)`, and entry `(n, h)` of the table. -/
theorem lidx_v18_ix (p : Fin 4) (r : Fin 8192) (h : Fin 1024) (n : Fin 4) : lidx_main_v18 (ix3 p r h) n = ix3 p r n :=
  funext fun a => Fin.ext (by match a with | ⟨0, _⟩ => rfl | ⟨1, _⟩ => rfl | ⟨2, _⟩ => rfl)

theorem ridx_v18_ix (p : Fin 4) (r : Fin 8192) (h : Fin 1024) (n : Fin 4) : ridx_main_v18 (ix3 p r h) n = ix2 n h :=
  funext fun a => Fin.ext (by match a with | ⟨0, _⟩ => rfl | ⟨1, _⟩ => rfl)

theorem lidx_v19_ix (p : Fin 4) (r : Fin 8192) (h : Fin 1024) (n : Fin 4) : lidx_main_v19 (ix3 p r h) n = ix3 p r n :=
  funext fun a => Fin.ext (by match a with | ⟨0, _⟩ => rfl | ⟨1, _⟩ => rfl | ⟨2, _⟩ => rfl)

theorem ridx_v19_ix (p : Fin 4) (r : Fin 8192) (h : Fin 1024) (n : Fin 4) : ridx_main_v19 (ix3 p r h) n = ix2 n h :=
  funext fun a => Fin.ext (by match a with | ⟨0, _⟩ => rfl | ⟨1, _⟩ => rfl)

/-! ## The stages, read at coordinates -/

/-- The first sum starts from the zero word, so it is the plain sum of the row. -/
theorem sum_stage (x : (⟨S4x8192x1024, .f32⟩ : BufTy).Contents (Elt Ideal)) (p : Fin 4) (r : Fin 8192) :
    val_main_v0 (F := Ideal) x (ix2 p r) = ∑ k : Fin 1024, x (ix3 p r k) := by
  rw [val_main_v0_apply, val_main_cst_apply, Ideal.ofBits_def, Ideal.ofBits_zero_f32, zero_add]
  exact Finset.sum_congr rfl fun k _ => congrArg x (idx_v0_ix p r k)

/-- The mean stage at row `(p, r)` is the specification's row mean. -/
theorem mean_stage (x : (⟨S4x8192x1024, .f32⟩ : BufTy).Contents (Elt Ideal)) (p : Fin 4) (r : Fin 8192) (z : Fin 1) :
    val_main_v3 (F := Ideal) x (ix3 p r z) = rowMean (fun k => x (ix3 p r k)) := by
  rw [val_main_v3_apply, val_main_v1_apply, idx_v1_ix, sum_stage, val_main_v2_apply, val_main_cst_0_apply,
    Ideal.hostDivf_def, Ideal.ofBits_def]
  rfl

/-- The centred entry (first copy, the one that is squared). -/
theorem centred_stage (x : (⟨S4x8192x1024, .f32⟩ : BufTy).Contents (Elt Ideal)) (p : Fin 4) (r : Fin 8192) (k : Fin 1024) :
    val_main_v5 (F := Ideal) x (ix3 p r k) = x (ix3 p r k) - rowMean (fun k => x (ix3 p r k)) := by
  rw [val_main_v5_apply, val_main_v4_apply, idx_v4_ix, mean_stage, Ideal.subf_def]

/-- The centred entry (second copy, the one that is scaled). -/
theorem centred_stage' (x : (⟨S4x8192x1024, .f32⟩ : BufTy).Contents (Elt Ideal)) (p : Fin 4) (r : Fin 8192) (k : Fin 1024) :
    val_main_v12 (F := Ideal) x (ix3 p r k) = x (ix3 p r k) - rowMean (fun k => x (ix3 p r k)) := by
  rw [val_main_v12_apply, val_main_v11_apply, idx_v11_ix, mean_stage, Ideal.subf_def]

/-- The second sum starts from the zero word too: it is the sum of the squared deviations of the row. -/
theorem sumsq_stage (x : (⟨S4x8192x1024, .f32⟩ : BufTy).Contents (Elt Ideal)) (p : Fin 4) (r : Fin 8192) :
    val_main_v7 (F := Ideal) x (ix2 p r)
      = ∑ k : Fin 1024, (x (ix3 p r k) - rowMean (fun k => x (ix3 p r k))) * (x (ix3 p r k) - rowMean (fun k => x (ix3 p r k))) := by
  rw [val_main_v7_apply, val_main_cst_1_apply, Ideal.ofBits_def, Ideal.ofBits_zero_f32, zero_add]
  refine Finset.sum_congr rfl fun k _ => ?_
  rw [idx_v7_ix, val_main_v6_apply, centred_stage, Ideal.mulf_def]

/-- The variance stage at row `(p, r)` is the specification's row variance. -/
theorem var_stage (x : (⟨S4x8192x1024, .f32⟩ : BufTy).Contents (Elt Ideal)) (p : Fin 4) (r : Fin 8192) (z : Fin 1) :
    val_main_v10 (F := Ideal) x (ix3 p r z) = rowVar (fun k => x (ix3 p r k)) := by
  rw [val_main_v10_apply, val_main_v8_apply, idx_v8_ix, sumsq_stage, val_main_v9_apply, val_main_cst_2_apply,
    Ideal.hostDivf_def, Ideal.ofBits_def]
  rfl

/-- The scale at row `(p, r)`: the reciprocal square root of the variance plus `ε`. -/
theorem scale_stage (x : (⟨S4x8192x1024, .f32⟩ : BufTy).Contents (Elt Ideal)) (p : Fin 4) (r : Fin 8192) (z : Fin 1) :
    val_main_v15 (F := Ideal) x (ix3 p r z) = Ideal.rsqrt (rowVar (fun k => x (ix3 p r k)) + varEps) := by
  rw [val_main_v15_apply, val_main_v14_apply, var_stage, val_main_v13_apply, val_main_cst_3_apply,
    Ideal.hostUnary_rsqrt_def, Ideal.addf_def, Ideal.ofBits_def]

/-- The normalised entry. -/
theorem normed_stage (x : (⟨S4x8192x1024, .f32⟩ : BufTy).Contents (Elt Ideal)) (p : Fin 4) (r : Fin 8192) (h : Fin 1024) :
    val_main_v17 (F := Ideal) x (ix3 p r h)
      = (x (ix3 p r h) - rowMean (fun k => x (ix3 p r k))) * Ideal.rsqrt (rowVar (fun k => x (ix3 p r k)) + varEps) := by
  rw [val_main_v17_apply, centred_stage', val_main_v16_apply, idx_v16_ix, scale_stage, Ideal.mulf_def]

/-- The slope: the mixture of column `h` of the first table by the row's four weights. -/
theorem slope_stage (al : (⟨S4x8192x4, .f32⟩ : BufTy).Contents (Elt Ideal)) (W : (⟨S4x1024, .f32⟩ : BufTy).Contents (Elt Ideal))
    (p : Fin 4) (r : Fin 8192) (h : Fin 1024) :
    val_main_v18 (F := Ideal) al W (ix3 p r h) = ∑ n : Fin 4, al (ix3 p r n) * W (ix2 n h) := by
  rw [val_main_v18_apply]
  exact Finset.sum_congr rfl fun n _ => by rw [lidx_v18_ix, ridx_v18_ix]

/-- The offset: the same mixture of column `h` of the second table. -/
theorem offset_stage (al : (⟨S4x8192x4, .f32⟩ : BufTy).Contents (Elt Ideal)) (b : (⟨S4x1024, .f32⟩ : BufTy).Contents (Elt Ideal))
    (p : Fin 4) (r : Fin 8192) (h : Fin 1024) :
    val_main_v19 (F := Ideal) al b (ix3 p r h) = ∑ n : Fin 4, al (ix3 p r n) * b (ix2 n h) := by
  rw [val_main_v19_apply]
  exact Finset.sum_congr rfl fun n _ => by rw [lidx_v19_ix, ridx_v19_ix]

/-! ## The reference's result -/

/-- The last operation's value at `(p, r, h)` is the specification's entry. -/
theorem ref_at (x : (⟨S4x8192x1024, .f32⟩ : BufTy).Contents (Elt Ideal)) (al : (⟨S4x8192x4, .f32⟩ : BufTy).Contents (Elt Ideal))
    (W b : (⟨S4x1024, .f32⟩ : BufTy).Contents (Elt Ideal)) (p : Fin 4) (r : Fin 8192) (h : Fin 1024) :
    val_main_v21 (F := Ideal) x al W b (ix3 p r h) = outAt x al W b p r h := by
  rw [val_main_v21_apply, val_main_v20_apply, normed_stage, slope_stage, offset_stage, Ideal.addf_def, Ideal.mulf_def]
  rfl

/-- The reference's result array is the specification's. -/
theorem ref_eq_result (x : (⟨S4x8192x1024, .f32⟩ : BufTy).Contents (Elt Ideal)) (al : (⟨S4x8192x4, .f32⟩ : BufTy).Contents (Elt Ideal)) (W b : (⟨S4x1024, .f32⟩ : BufTy).Contents (Elt Ideal)) :
    val_main_v21 (F := Ideal) x al W b = result x al W b := by
  funext i
  obtain ⟨p, r, h, rfl⟩ : ∃ (p : Fin 4) (r : Fin 8192) (h : Fin 1024), i = ix3 p r h := ⟨i 0, i 1, i 2, eq_ix3 i⟩
  rw [result_ix3]
  exact ref_at x al W b p r h

end Cert.ReferenceIdeal.RefValue

end
-- ==== Proof.lean ====
/-
  The certificate of the row-normalising, mixed-affine kernel against its jnp reference.

  Both programs compute, for `x : [4, 8192, 1024]`, mixing weights `α : [4, 8192, 4]` and two tables `W, b : [4, 1024]`,
      out(p, r, h) = (x(p,r,h) − μ) · rsqrt(σ² + ε) · (∑ₙ α(p,r,n) · W(n,h)) + ∑ₙ α(p,r,n) · b(n,h)
  with `μ` and `σ²` the mean and the biased variance of row `(p, r, ·)` of `x` (Proof/RowNormSpec.lean: `result`).
  The kernel works on sixteen blocks of 2048 whole rows; an entry depends on its own row only, and on one column of the two
  tables, which every grid point holds whole, so each block the kernel writes is that block of `result`
  (Proof/KernelRow.lean: one entry of the body's arithmetic; Proof/KernelArray.lean: from the blocks to the array), and the
  blocks tile the array. The reference's chain of host operations read at an index is the same expression
  (Proof/RefValue.lean). At the ideal instance the kernel's lane sums, its divisions by the row length, its `rsqrt` and its
  two products into a zero accumulator are the reference's sums from zero, divisions, `rsqrt` and contractions, and the
  literals are the same words on both sides: the two results agree entry by entry with no use of the inputs' finiteness.
  The ideal pass rewrote nothing, so the idealization claim is trivial; the kernels' frames are the generated ones, and the
  reference's frame is its generated run with the result dropped.
-/
import proofs.«118963_j40707700031573_1_alg».proof.Defs
import proofs.«118963_j40707700031573_1_alg».proof.Proof.Gen.Kernel
import proofs.«118963_j40707700031573_1_alg».proof.Proof.Gen.Kernel.Skeleton
import proofs.«118963_j40707700031573_1_alg».proof.Proof.Gen.Kernel.Launch
import proofs.«118963_j40707700031573_1_alg».proof.Proof.Gen.Kernel.Points
import proofs.«118963_j40707700031573_1_alg».proof.Proof.Gen.Kernel.Frame
import proofs.«118963_j40707700031573_1_alg».proof.Proof.Gen.KernelIdeal
import proofs.«118963_j40707700031573_1_alg».proof.Proof.Gen.KernelIdeal.Skeleton
import proofs.«118963_j40707700031573_1_alg».proof.Proof.Gen.KernelIdeal.Launch
import proofs.«118963_j40707700031573_1_alg».proof.Proof.Gen.KernelIdeal.Points
import proofs.«118963_j40707700031573_1_alg».proof.Proof.Gen.KernelIdeal.Frame
import proofs.«118963_j40707700031573_1_alg».proof.Proof.Gen.ReferenceIdeal
import proofs.«118963_j40707700031573_1_alg».proof.Proof.Gen.Pre_finite_inputs
import proofs.«118963_j40707700031573_1_alg».proof.Proof.Gen.KernelIdeal.Value
import proofs.«118963_j40707700031573_1_alg».proof.Proof.Gen.ReferenceIdeal.Run
import proofs.«118963_j40707700031573_1_alg».proof.Proof.Gen.ReferenceIdeal.Read
import proofs.«118963_j40707700031573_1_alg».proof.Proof.RowNormSpec
import proofs.«118963_j40707700031573_1_alg».proof.Proof.KernelArray
import proofs.«118963_j40707700031573_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's frame is its run with the result's value forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the four arguments both programs end with the same array: `result` of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
